-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S2x2048x64 : Shape := ⟨3, ![2, 2048, 64]⟩
abbrev S2x64x64 : Shape := ⟨3, ![2, 64, 64]⟩

abbrev nBuf : Space → Nat
  | .hbm => 8
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S2x2048x64, .f32⟩
  | .local _ .vmem, ⟨1, _⟩ => ⟨S2x2048x64, .f32⟩
  | .local _ .vmem, ⟨2, _⟩ => ⟨S2x2048x64, .f32⟩
  | .local _ .vmem, ⟨3, _⟩ => ⟨S2x2048x64, .f32⟩
  | .local _ .vmem, ⟨4, _⟩ => ⟨S2x2048x64, .f32⟩
  | .local _ .vmem, ⟨5, _⟩ => ⟨S2x2048x64, .f32⟩
  | .local _ .vmem, ⟨6, _⟩ => ⟨S2x2048x64, .f32⟩
  | .local _ .vmem, ⟨7, _⟩ => ⟨S2x2048x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x16x2048x64_S32x2048x64 : S2x16x2048x64.ShapeCasts S32x2048x64
  inb_S2x2048x64_S2x2048x64_0_0_0 : ∀ a, (![0, 0, 0] : Fin 3 → Nat) a + S2x2048x64.size a ≤ S2x2048x64.size a
  h_S2x2048x64 : 0 < S2x2048x64.numel
  shapeCasts_S2x2048x64_S2x2048x64 : S2x2048x64.ShapeCasts S2x2048x64
  bitsLt_bf16_f32 : FTy.bits .bf16 < FTy.bits .f32
  shapeCasts_S32x2048x64_S2x16x2048x64 : S32x2048x64.ShapeCasts S2x16x2048x64
  dot_S2x2048x64_S2x2048x64_S2x64x64_1_1_2_2_0_0_wf : DotDims.WF S2x2048x64 S2x2048x64 S2x64x64 [1] [1] [2] [2] [0] [0]
  dot_S2x2048x64_S2x64x64_S2x2048x64_2_1_1_2_0_0_wf : DotDims.WF S2x2048x64 S2x64x64 S2x2048x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x64.size a ≤ S32x2048x64.size a
  hwx0_0 : ∀ i : grid0.Coords, EltTy.bits .f32 = 32 ∨ (Rect.block (s := S32x2048x64) S2x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048x64.size a ≤ S32x2048x64.size a
  hwx0_1 : ∀ i : grid0.Coords, EltTy.bits .f32 = 32 ∨ (Rect.block (s := S32x2048x64) S2x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2048x64.size a ≤ S32x2048x64.size a
  hwx0_2 : ∀ i : grid0.Coords, EltTy.bits .f32 = 32 ∨ (Rect.block (s := S32x2048x64) S2x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x2048x64.size a ≤ S32x2048x64.size a
  hwx0_3 : ∀ i : grid0.Coords, EltTy.bits .f32 = 32 ∨ (Rect.block (s := S32x2048x64) S2x2048x64.size (cc0_transform_3 i) (hinb0_3 i)).WholeWords (EltTy.packing .f32)

variable [Facts₀]

def dot_S2x2048x64_S2x2048x64_S2x64x64_1_1_2_2_0_0 : DotDims S2x2048x64 S2x2048x64 S2x64x64 where
  lhsContracting := [1]
  rhsContracting := [1]
  lhsNonContracting := [2]
  rhsNonContracting := [2]
  lhsBatch := [0]
  rhsBatch := [0]
  wf := dot_S2x2048x64_S2x2048x64_S2x64x64_1_1_2_2_0_0_wf
def dot_S2x2048x64_S2x64x64_S2x2048x64_2_1_1_2_0_0 : DotDims S2x2048x64 S2x64x64 S2x2048x64 where
  lhsContracting := [2]
  rhsContracting := [1]
  lhsNonContracting := [1]
  rhsNonContracting := [2]
  lhsBatch := [0]
  rhsBatch := [0]
  wf := dot_S2x2048x64_S2x64x64_S2x2048x64_2_1_1_2_0_0_wf

abbrev win0_0 : Pipeline.Window sig grid0 :=
  Pipeline.Window.ofSpec (Memref.whole main_v0) S2x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Reassociate.lean ====
/-
  The one algebraic law of this certificate, over the extended reals.

  For a row `a` of length D, a matrix `k` of M rows and D columns and a column `v` of length M, all REAL-valued,

      ∑ m, (∑ d, a d * k m d) * v m  =  ∑ d, a d * ∑ m, k m d * v m.

  Left: form the M scores `⟨a, k m⟩` first and then contract them against `v`. Right: contract `k` against `v`
  first (a vector of length D) and then take its product with `a`. Over a commutative semiring this is
  distributivity and an exchange of the two finite sums. The extended reals are not one (`⊤ + ⊥`, `0 * ⊤`), so the
  law is stated for entries that are coercions of reals: both sides are then coercions of real sums, and the law is
  the real one.
-/
import Idealize.ShloMosaic.PureOps.Ideal

noncomputable section

namespace Cert.Attn

open Finset

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Scores first, or keys against values first: the same number when every entry is real. -/
theorem reassociate {D M : Type*} [Fintype D] [Fintype M] (a : D → ℝ) (k : M → D → ℝ) (v : M → ℝ) :
    ∑ m, (∑ d, (a d : EReal) * (k m d : EReal)) * (v m : EReal)
      = ∑ d, (a d : EReal) * ∑ m, (k m d : EReal) * (v m : EReal) := by
  simp only [← EReal.coe_mul, ← coe_sum]
  refine congrArg _ ?_
  simp only [Finset.sum_mul, Finset.mul_sum]
  rw [Finset.sum_comm]
  exact Finset.sum_congr rfl fun d _ => Finset.sum_congr rfl fun m _ => by ring

end Cert.Attn

end
-- ==== Proof.Spec.lean ====
/-
  What both programs compute, index by index, over the extended reals.

  Inputs `q k v : [2, 16, 2048, 64]` (batch, head, position, feature). There is no softmax, mask or scale, so each head
  is a product of three matrices, `Q · Kᵀ · V`, and the two programs differ only in how they bracket it:

    scores first :  out[b,h,l,e] = ∑ p, (∑ d, q[b,h,l,d] · k[b,h,p,d]) · v[b,h,p,e]      ((Q·Kᵀ)·V, a 2048×2048 matrix per head)
    keys first   :  out[b,h,l,e] = ∑ d, q[b,h,l,d] · (∑ p, k[b,h,p,d] · v[b,h,p,e])      (Q·(Kᵀ·V), a 64×64 matrix per head)

  They agree when every entry is a real number (`Reassociate.lean`). On the extended reals without that hypothesis
  they need not: the two bracketings meet `⊤ + ⊥` and `0 · ⊤` at different places.

  `keysFirst` is the same expression for an array of `n` heads with batch and head already merged into one leading axis
  — the layout in which the kernel sees its operands.
-/
import Idealize.ShloMosaic.Lib.ValueIdx
import proofs.«103651_j52398601012060_2_alg».proof.Proof.Reassociate

noncomputable section

namespace Cert.Attn

open Idealize.ShloMosaic Idealize.ShloMosaic.ValueIdx

/-- Keys against values first, for `n` heads on one leading axis: entry `(g, l, e)` is
    `∑ d, Q[g,l,d] · ∑ p, K[g,p,d] · V[g,p,e]`. -/
def keysFirst {n : Nat} (Q K V : (⟨3, ![n, 2048, 64]⟩ : Shape).Idx → EReal) (g : Fin n) (l : Fin 2048) (e : Fin 64) : EReal :=
  ∑ d : Fin 64, Q (ix3 g l d) * ∑ p : Fin 2048, K (ix3 g p d) * V (ix3 g p e)

/-- Keys against values first, over (batch, head, position, feature). -/
def keysFirst4 (q k v : (⟨4, ![2, 16, 2048, 64]⟩ : Shape).Idx → EReal) (b : Fin 2) (h : Fin 16) (l : Fin 2048) (e : Fin 64) : EReal :=
  ∑ d : Fin 64, q (ix4 b h l d) * ∑ p : Fin 2048, k (ix4 b h p d) * v (ix4 b h p e)

/-- Scores first, over (batch, head, position, feature). -/
def scoresFirst4 (q k v : (⟨4, ![2, 16, 2048, 64]⟩ : Shape).Idx → EReal) (b : Fin 2) (h : Fin 16) (l : Fin 2048) (e : Fin 64) : EReal :=
  ∑ p : Fin 2048, (∑ d : Fin 64, q (ix4 b h l d) * k (ix4 b h p d)) * v (ix4 b h p e)

/-- The output array both programs end with: `keysFirst4` at the index's four coordinates. -/
def attention (q k v : (⟨4, ![2, 16, 2048, 64]⟩ : Shape).Idx → EReal) : (⟨4, ![2, 16, 2048, 64]⟩ : Shape).Idx → EReal :=
  fun i => keysFirst4 q k v (i 0) (i 1) (i 2) (i 3)

/-- On real entries the two bracketings are one number. -/
theorem scoresFirst4_eq_keysFirst4 (q k v : (⟨4, ![2, 16, 2048, 64]⟩ : Shape).Idx → EReal)
    (hq : ∀ i, ∃ r : ℝ, q i = (r : EReal)) (hk : ∀ i, ∃ r : ℝ, k i = (r : EReal)) (hv : ∀ i, ∃ r : ℝ, v i = (r : EReal))
    (b : Fin 2) (h : Fin 16) (l : Fin 2048) (e : Fin 64) :
    scoresFirst4 q k v b h l e = keysFirst4 q k v b h l e := by
  choose q' hq' using hq
  choose k' hk' using hk
  choose v' hv' using hv
  unfold scoresFirst4 keysFirst4
  simp only [hq', hk', hv']
  exact reassociate (fun d => q' (ix4 b h l d)) (fun p d => k' (ix4 b h p d)) (fun p => v' (ix4 b h p e))

end Cert.Attn

end
-- ==== Proof.BodyValue.lean ====
/-
  What the kernel body stores, read at an index, on the extended reals.

  At one grid point the body sees two heads: blocks `x0, x1, x2 : [2, 2048, 64]` of the (merged) query, key and value
  arrays. It forms, per head `g`, the 64×64 matrix `kv[g,d,e] = ∑ p, x1[g,p,d] · x2[g,p,e]` (a product contracting the
  2048 positions, into a zero accumulator) and then `out[g,l,e] = ∑ d, x0[g,l,d] · kv[g,d,e]` (a product contracting the 64
  features, again into zeros). The casts of keys and values to bf16 are the identity on exact values, and the shape casts
  are to the same shape. So the stored block is `Attn.keysFirst x0 x1 x2` (Spec.lean) with two heads.

  Each product is a sum over the contraction's own index type; it is carried to `Fin 2048` / `Fin 64` along the
  bijection "a one-axis contraction index is its coordinate", after naming the operands' indices coordinate by coordinate:
  for `kv` at `(g, d, e)` and contraction coordinate `p` the operands are read at `(g, p, d)` and `(g, p, e)`; for `out` at
  `(g, l, e)` and contraction coordinate `d`, at `(g, l, d)` and `(g, d, e)`.
-/
import proofs.«103651_j52398601012060_2_alg».proof.Proof.Gen.KernelIdeal.Skeleton
import Idealize.ShloMosaic.Lib.ValueIdx
import Idealize.ShloMosaic.Lib.Pipeline.Value
import Idealize.ShloMosaic.PureOps.Ideal.Laws
import proofs.«103651_j52398601012060_2_alg».proof.Proof.Spec

noncomputable section

namespace Cert.KernelIdeal.BodyValue

open Cert.KernelIdeal Cert.KernelIdeal.Gen Idealize.ShloMosaic Idealize.ShloMosaic.ValueIdx

/-- Keys against values: contract axis 1 of both operands, batch axis 0, result `[2, 64, 64]`. -/
abbrev kvDims : DotDims S2x2048x64 S2x2048x64 S2x64x64 := dot_S2x2048x64_S2x2048x64_S2x64x64_1_1_2_2_0_0
/-- Queries against that: contract axis 2 of the queries with axis 1 of `kv`, batch axis 0, result `[2, 2048, 64]`. -/
abbrev outDims : DotDims S2x2048x64 S2x64x64 S2x2048x64 := dot_S2x2048x64_S2x64x64_S2x2048x64_2_1_1_2_0_0

/-! ## The operand indices of `kv`, coordinate by coordinate -/

theorem kv_lhs_0 (j : S2x64x64.Idx) (q : kvDims.contr.Idx) : (kvDims.lhsIdx j q 0).val = (j 0).val := by
  unfold DotDims.lhsIdx
  rw [dif_pos (show (0 : Fin S2x2048x64.rank) ∈ kvDims.lhsBatch by decide)]
  rfl
theorem kv_lhs_1 (j : S2x64x64.Idx) (q : kvDims.contr.Idx) : (kvDims.lhsIdx j q 1).val = (q ⟨0, by decide⟩).val :=
  kvDims.lhsIdx_val_of_single rfl j q
theorem kv_lhs_2 (j : S2x64x64.Idx) (q : kvDims.contr.Idx) : (kvDims.lhsIdx j q 2).val = (j 1).val := by
  unfold DotDims.lhsIdx
  rw [dif_neg (show ¬(2 : Fin S2x2048x64.rank) ∈ kvDims.lhsBatch by decide),
    dif_pos (show (2 : Fin S2x2048x64.rank) ∈ kvDims.lhsNonContracting by decide)]
  rfl
theorem kv_rhs_0 (j : S2x64x64.Idx) (q : kvDims.contr.Idx) : (kvDims.rhsIdx j q 0).val = (j 0).val := by
  unfold DotDims.rhsIdx
  rw [dif_pos (show (0 : Fin S2x2048x64.rank) ∈ kvDims.rhsBatch by decide)]
  rfl
theorem kv_rhs_1 (j : S2x64x64.Idx) (q : kvDims.contr.Idx) : (kvDims.rhsIdx j q 1).val = (q ⟨0, by decide⟩).val :=
  kvDims.rhsIdx_val_of_single rfl j q
theorem kv_rhs_2 (j : S2x64x64.Idx) (q : kvDims.contr.Idx) : (kvDims.rhsIdx j q 2).val = (j 2).val := by
  unfold DotDims.rhsIdx
  rw [dif_neg (show ¬(2 : Fin S2x2048x64.rank) ∈ kvDims.rhsBatch by decide),
    dif_pos (show (2 : Fin S2x2048x64.rank) ∈ kvDims.rhsNonContracting by decide)]
  rfl

/-- `kv` at `(g, d, e)`: the sum over the 2048 positions of key feature `d` times value feature `e`. -/
theorem kv_apply (X1 X2 : FVec Ideal S2x2048x64 .bf16) (g : Fin 2) (d e : Fin 64) :
    FloatOps.matmul kvDims none X1 X2 (constant S2x64x64 .f32 0x00000000#32) (ix3 g d e)
      = ∑ p : Fin 2048, X1 (ix3 g p d) * X2 (ix3 g p e) := by
  rw [Ideal.matmul_constant_zero_apply, ← Equiv.sum_comp (contrEquiv1 kvDims 2048 rfl rfl).symm]
  refine Finset.sum_congr rfl fun p _ => ?_
  have hp := contrEquiv1_symm_val kvDims 2048 rfl rfl p
  have el : kvDims.lhsIdx (ix3 g d e) ((contrEquiv1 kvDims 2048 rfl rfl).symm p) = ix3 g p d := funext fun a => Fin.ext (by
    match a with
    | ⟨0, _⟩ => exact kv_lhs_0 _ _
    | ⟨1, _⟩ => exact (kv_lhs_1 _ _).trans hp
    | ⟨2, _⟩ => exact kv_lhs_2 _ _)
  have er : kvDims.rhsIdx (ix3 g d e) ((contrEquiv1 kvDims 2048 rfl rfl).symm p) = ix3 g p e := funext fun a => Fin.ext (by
    match a with
    | ⟨0, _⟩ => exact kv_rhs_0 _ _
    | ⟨1, _⟩ => exact (kv_rhs_1 _ _).trans hp
    | ⟨2, _⟩ => exact kv_rhs_2 _ _)
  rw [el, er]

/-! ## The operand indices of `out`, coordinate by coordinate -/

theorem out_lhs_0 (j : S2x2048x64.Idx) (q : outDims.contr.Idx) : (outDims.lhsIdx j q 0).val = (j 0).val := by
  unfold DotDims.lhsIdx
  rw [dif_pos (show (0 : Fin S2x2048x64.rank) ∈ outDims.lhsBatch by decide)]
  rfl
theorem out_lhs_1 (j : S2x2048x64.Idx) (q : outDims.contr.Idx) : (outDims.lhsIdx j q 1).val = (j 1).val := by
  unfold DotDims.lhsIdx
  rw [dif_neg (show ¬(1 : Fin S2x2048x64.rank) ∈ outDims.lhsBatch by decide),
    dif_pos (show (1 : Fin S2x2048x64.rank) ∈ outDims.lhsNonContracting by decide)]
  rfl
theorem out_lhs_2 (j : S2x2048x64.Idx) (q : outDims.contr.Idx) : (outDims.lhsIdx j q 2).val = (q ⟨0, by decide⟩).val :=
  outDims.lhsIdx_val_of_single rfl j q
theorem out_rhs_0 (j : S2x2048x64.Idx) (q : outDims.contr.Idx) : (outDims.rhsIdx j q 0).val = (j 0).val := by
  unfold DotDims.rhsIdx
  rw [dif_pos (show (0 : Fin S2x64x64.rank) ∈ outDims.rhsBatch by decide)]
  rfl
theorem out_rhs_1 (j : S2x2048x64.Idx) (q : outDims.contr.Idx) : (outDims.rhsIdx j q 1).val = (q ⟨0, by decide⟩).val :=
  outDims.rhsIdx_val_of_single rfl j q
theorem out_rhs_2 (j : S2x2048x64.Idx) (q : outDims.contr.Idx) : (outDims.rhsIdx j q 2).val = (j 2).val := by
  unfold DotDims.rhsIdx
  rw [dif_neg (show ¬(2 : Fin S2x64x64.rank) ∈ outDims.rhsBatch by decide),
    dif_pos (show (2 : Fin S2x64x64.rank) ∈ outDims.rhsNonContracting by decide)]
  rfl

/-- `out` at `(g, l, e)`: the sum over the 64 features of query feature `d` times `kv[g, d, e]`. -/
theorem out_apply (X0 : FVec Ideal S2x2048x64 .f32) (Y : FVec Ideal S2x64x64 .f32) (g : Fin 2) (l : Fin 2048) (e : Fin 64) :
    FloatOps.matmul outDims (some .fp32) X0 Y (constant S2x2048x64 .f32 0x00000000#32) (ix3 g l e)
      = ∑ d : Fin 64, X0 (ix3 g l d) * Y (ix3 g d e) := by
  rw [Ideal.matmul_constant_zero_apply, ← Equiv.sum_comp (contrEquiv1 outDims 64 rfl rfl).symm]
  refine Finset.sum_congr rfl fun d _ => ?_
  have hd := contrEquiv1_symm_val outDims 64 rfl rfl d
  have el : outDims.lhsIdx (ix3 g l e) ((contrEquiv1 outDims 64 rfl rfl).symm d) = ix3 g l d := funext fun a => Fin.ext (by
    match a with
    | ⟨0, _⟩ => exact out_lhs_0 _ _
    | ⟨1, _⟩ => exact out_lhs_1 _ _
    | ⟨2, _⟩ => exact (out_lhs_2 _ _).trans hd)
  have er : outDims.rhsIdx (ix3 g l e) ((contrEquiv1 outDims 64 rfl rfl).symm d) = ix3 g d e := funext fun a => Fin.ext (by
    match a with
    | ⟨0, _⟩ => exact out_rhs_0 _ _
    | ⟨1, _⟩ => exact (out_rhs_1 _ _).trans hd
    | ⟨2, _⟩ => exact out_rhs_2 _ _)
  rw [el, er]

/-! ## The stored block -/

/-- The value the body stores, at `(g, l, e)`, is `∑ d, x0[g,l,d] · ∑ p, x1[g,p,d] · x2[g,p,e]`. -/
theorem stored_apply (x0 x1 x2 : Vec Ideal S2x2048x64 .f32) (g : Fin 2) (l : Fin 2048) (e : Fin 64) :
    k0_pay1 (F := Ideal) x0 x1 x2 (ix3 g l e) = Cert.Attn.keysFirst (n := 2) x0 x1 x2 g l e := by
  unfold k0_pay1 Cert.Attn.keysFirst
  refine (out_apply _ _ g l e).trans ?_
  refine Finset.sum_congr rfl fun d _ => ?_
  rw [shapeCast_self]
  refine congrArg (x0 (ix3 g l d) * ·) ?_
  refine (kv_apply _ _ g d e).trans ?_
  refine Finset.sum_congr rfl fun p _ => ?_
  rw [shapeCast_self, shapeCast_self]
  rfl

end Cert.KernelIdeal.BodyValue

end
-- ==== Proof.RegionValue.lean ====
/-
  The array the pallas_call leaves: keys-first attention of the merged arrays, all 32 heads.

  The grid has 16 points. Point `t` stages heads `2t` and `2t+1` of each of the three merged operands `[32, 2048, 64]`
  (block `(t, 0, 0)` of block shape `[2, 2048, 64]`), and writes back the same block of the result. A block index
  `(g, l, d)` therefore sits at array index `(2t + g, l, d)` in all four windows. Since head `2t + g` of the result depends
  only on head `2t + g` of the operands, what point `t` writes back is block `t` of ONE whole-array function, `heads`
  below; the 16 blocks cover the 32 heads (head `r` is in block `r / 2`), so the array ends at `heads`.
-/
import proofs.«103651_j52398601012060_2_alg».proof.Proof.Gen.KernelIdeal.Frame
import Idealize.ShloMosaic.Lib.Pipeline.Value
import proofs.«103651_j52398601012060_2_alg».proof.Proof.BodyValue

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- Keys-first attention of merged arrays, as a whole-array function. -/
def heads (Q K V : S32x2048x64.Idx → EReal) : S32x2048x64.Idx → EReal :=
  fun i => Cert.Attn.keysFirst (n := 32) Q K V (i 0) (i 1) (i 2)

/-! ## One block -/

/-- `E` places a block index `b` blocks down the leading axis: `(g, l, d) ↦ (2b + g, l, d)`. -/
def Places (b : Nat) (E : S2x2048x64.Idx → S32x2048x64.Idx) : Prop :=
  ∀ y, (E y 0).val = b * 2 + (y 0).val ∧ (E y 1).val = (y 1).val ∧ (E y 2).val = (y 2).val

/-- If the three operand blocks are the arrays read `b` blocks down, the stored block is `heads` read `b` blocks down:
    a head's result reads that head's queries, keys and values only. -/
theorem block_eq (Q K V : S32x2048x64.Idx → EReal) (x0 x1 x2 : Vec Ideal S2x2048x64 .f32)
    (E0 E1 E2 E3 : S2x2048x64.Idx → S32x2048x64.Idx) (b : Nat)
    (p0 : Places b E0) (p1 : Places b E1) (p2 : Places b E2) (p3 : Places b E3)
    (h0 : ∀ y, x0 y = Q (E0 y)) (h1 : ∀ y, x1 y = K (E1 y)) (h2 : ∀ y, x2 y = V (E2 y)) (j : S2x2048x64.Idx) :
    k0_pay1 (F := Ideal) x0 x1 x2 j = heads Q K V (E3 j) := by
  obtain ⟨g, l, e, rfl⟩ : ∃ (g : Fin 2) (l : Fin 2048) (e : Fin 64), j = ix3 g l e := ⟨j 0, j 1, j 2, eq_ix3 j⟩
  rw [BodyValue.stored_apply]
  unfold heads Cert.Attn.keysFirst
  obtain ⟨r0, r1, r2⟩ := p3 (ix3 g l e)
  refine Finset.sum_congr rfl fun d _ => ?_
  have a0 : E0 (ix3 g l d) = ix3 (E3 (ix3 g l e) 0) (E3 (ix3 g l e) 1) d := by
    obtain ⟨s0, s1, s2⟩ := p0 (ix3 g l d)
    funext a; apply Fin.ext
    match a with
    | ⟨0, _⟩ => exact s0.trans r0.symm
    | ⟨1, _⟩ => exact s1.trans r1.symm
    | ⟨2, _⟩ => exact s2
  rw [h0, a0]
  refine congrArg (Q _ * ·) ?_
  refine Finset.sum_congr rfl fun p _ => ?_
  have a1 : E1 (ix3 g p d) = ix3 (E3 (ix3 g l e) 0) p d := by
    obtain ⟨s0, s1, s2⟩ := p1 (ix3 g p d)
    funext a; apply Fin.ext
    match a with
    | ⟨0, _⟩ => exact s0.trans r0.symm
    | ⟨1, _⟩ => exact s1
    | ⟨2, _⟩ => exact s2
  have a2 : E2 (ix3 g p e) = ix3 (E3 (ix3 g l e) 0) p (E3 (ix3 g l e) 2) := by
    obtain ⟨s0, s1, s2⟩ := p2 (ix3 g p e)
    funext a; apply Fin.ext
    match a with
    | ⟨0, _⟩ => exact s0.trans r0.symm
    | ⟨1, _⟩ => exact s1
    | ⟨2, _⟩ => exact s2.trans r2.symm
  rw [h1, h2, a1, a2]
  rfl

/-! ## The sixteen blocks -/

variable (m : (ℓ : Loc nD τ sig) → Buf (Elt Ideal) ℓ) (ρ : Dev nD → PrngReg)

theorem offsets_zero : (![0, 0, 0] : Fin 3 → Nat) = fun _ => 0 := funext fun a => by fin_cases a <;> rfl

/-- The four index maps agree at every point: block `(t, 0, 0)`, `t` at most 15. -/
theorem index_maps : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) = 0 ∧ win0_3.index t (2 : Fin 3) = 0 :=
  (by decide +kernel : ∀ t : Fin grid0.N, _)

/-- Every pair of heads is some point's block. -/
theorem index_onto : ∀ q0 : Fin 16, ∃ t : Fin cfg0.N, win0_3.index t = ![q0.val, 0, 0] :=
  (by decide +kernel : ∀ q0 : Fin 16, ∃ t : Fin grid0.N, win0_3.index t = ![q0.val, 0, 0])

/-- What point `t` writes back is block `t` of `heads` of the merged arrays as the call finds them. -/
theorem flushed_eq (c : Dev nD) (t : Fin cfg0.N) :
    (dats m 0 c).flushed 3 t
      = ((cfg0.win 3).blk t).view.read (Elt Ideal) (heads (V m c main_v0) (V m c main_v1) (V m c main_v2)) := by
  show (cfg0.win 3).cut (grid0.coords t) ((dats m 0 c).after 3 t) = _
  rw [after0_3]
  unfold out0_3
  rw [View.canon_unit_zero offsets_zero]
  simp only [View.ld_unit_zero (S := S2x2048x64) offsets_zero]
  obtain ⟨e00, e01, e02, e10, e11, e12, e20, e21, e22, e30, e31, e32⟩ := index_maps t
  funext j
  show k0_pay1 (F := Ideal) (iblk m c 0 t) (iblk m c 1 t) (iblk m c 2 t) j
    = heads (V m c main_v0) (V m c main_v1) (V m c main_v2) (((cfg0.win 3).blk t).view.emb j)
  refine block_eq (V m c main_v0) (V m c main_v1) (V m c main_v2) (iblk m c 0 t) (iblk m c 1 t) (iblk m c 2 t)
    (((cfg0.win 0).blk t).view.emb) (((cfg0.win 1).blk t).view.emb) (((cfg0.win 2).blk t).view.emb) (((cfg0.win 3).blk t).view.emb)
    (win0_3.index t (0 : Fin 3)) ?_ ?_ ?_ ?_ (fun _ => rfl) (fun _ => rfl) (fun _ => rfl) j
  · intro y
    refine ⟨?_, ?_, ?_⟩
    · show win0_0.index t (0 : Fin 3) * 2 + 1 * (y 0).val = win0_3.index t (0 : Fin 3) * 2 + (y 0).val; omega
    · show win0_0.index t (1 : Fin 3) * 2048 + 1 * (y 1).val = (y 1).val; omega
    · show win0_0.index t (2 : Fin 3) * 64 + 1 * (y 2).val = (y 2).val; omega
  · intro y
    refine ⟨?_, ?_, ?_⟩
    · show win0_1.index t (0 : Fin 3) * 2 + 1 * (y 0).val = win0_3.index t (0 : Fin 3) * 2 + (y 0).val; omega
    · show win0_1.index t (1 : Fin 3) * 2048 + 1 * (y 1).val = (y 1).val; omega
    · show win0_1.index t (2 : Fin 3) * 64 + 1 * (y 2).val = (y 2).val; omega
  · intro y
    refine ⟨?_, ?_, ?_⟩
    · show win0_2.index t (0 : Fin 3) * 2 + 1 * (y 0).val = win0_3.index t (0 : Fin 3) * 2 + (y 0).val; omega
    · show win0_2.index t (1 : Fin 3) * 2048 + 1 * (y 1).val = (y 1).val; omega
    · show win0_2.index t (2 : Fin 3) * 64 + 1 * (y 2).val = (y 2).val; omega
  · intro y
    refine ⟨?_, ?_, ?_⟩
    · show win0_3.index t (0 : Fin 3) * 2 + 1 * (y 0).val = win0_3.index t (0 : Fin 3) * 2 + (y 0).val; omega
    · show win0_3.index t (1 : Fin 3) * 2048 + 1 * (y 1).val = (y 1).val; omega
    · show win0_3.index t (2 : Fin 3) * 64 + 1 * (y 2).val = (y 2).val; omega

/-- An index of the result array is in point `t`'s block iff each coordinate is in the block's range on its axis. -/
theorem mem_blk (t : Fin cfg0.N) (i : S32x2048x64.Idx) :
    i ∈ ((cfg0.win 3).blk t).view.set ↔ ∀ a : Fin 3, win0_3.index t a * S2x2048x64.size a ≤ (i a).val
      ∧ (i a).val < win0_3.index t a * S2x2048x64.size a + S2x2048x64.size a := by
  show i ∈ ((View.whole main_v3).slice (win0_3.rect t)).set ↔ _
  rw [View.set_slice_whole, Rect.mem_set_unit]
  exact Iff.rfl

/-- Head `r` is in the block of point `r / 2`: the blocks cover the array. -/
theorem covered (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := index_onto ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 64 ≤ (i 2).val ∧ (i 2).val < win0_3.index t (2 : Fin 3) * 64 + 64; omega

/-- The result array after the call. -/
theorem final (c : Dev nD) :
    (dats m 0 c).arrAt 3 cfg0.N = heads (V m c main_v0) (V m c main_v1) (V m c main_v2) :=
  (dats m 0 c).arrAt_eq_of_cover 3 _ (fun t _ => flushed_eq m c t) covered

end Cert.KernelIdeal.RegionValue

end
-- ==== Proof.Flatten.lean ====
/-
  Merging batch and head into one axis, and splitting them again.

  A row-major reshape `[2, 16, 2048, 64] → [32, 2048, 64]` keeps positions in memory: entry `(b, h, l, d)` becomes entry
  `(16·b + h, l, d)`, because `((b·16 + h)·2048 + l)·64 + d` is the row-major position on both sides. The reshape back
  is the inverse. Stated for any `g` with `g = 16·b + h`, so that a caller may name the merged coordinate as it likes.
-/
import Idealize.ShloMosaic.Lib.ValueIdx
import Idealize.ShloMosaic.Lib.Pipeline.Value

noncomputable section

namespace Cert.Attn

open Idealize.ShloMosaic Idealize.ShloMosaic.ValueIdx

variable {α : Type}

/-- The merged array at `(g, l, d)`, `g = 16·b + h`, is the four-axis array at `(b, h, l, d)`. -/
theorem merge_apply (x : (⟨4, ![2, 16, 2048, 64]⟩ : Shape).Idx → α)
    (hc : (⟨4, ![2, 16, 2048, 64]⟩ : Shape).ShapeCasts ⟨3, ![32, 2048, 64]⟩)
    (b : Fin 2) (h : Fin 16) (l : Fin 2048) (d : Fin 64) (g : Fin 32) (hg : g.val = b.val * 16 + h.val) :
    shapeCast ⟨3, ![32, 2048, 64]⟩ x hc (ix3 g l d) = x (ix4 b h l d) := by
  refine shapeCast_apply x hc (ix3 g l d) (ix4 b h l d) ?_
  rw [Shape.rowMajor_val_four, Shape.rowMajor_val_three]
  show ((b.val * 16 + h.val) * 2048 + l.val) * 64 + d.val = (g.val * 2048 + l.val) * 64 + d.val
  rw [hg]

/-- The split array at `(b, h, l, d)` is the three-axis array at `(g, l, d)`, `g = 16·b + h`. -/
theorem split_apply (y : (⟨3, ![32, 2048, 64]⟩ : Shape).Idx → α)
    (hc : (⟨3, ![32, 2048, 64]⟩ : Shape).ShapeCasts ⟨4, ![2, 16, 2048, 64]⟩)
    (b : Fin 2) (h : Fin 16) (l : Fin 2048) (d : Fin 64) (g : Fin 32) (hg : g.val = b.val * 16 + h.val) :
    shapeCast ⟨4, ![2, 16, 2048, 64]⟩ y hc (ix4 b h l d) = y (ix3 g l d) := by
  refine shapeCast_apply y hc (ix4 b h l d) (ix3 g l d) ?_
  rw [Shape.rowMajor_val_four, Shape.rowMajor_val_three]
  show (g.val * 2048 + l.val) * 64 + d.val = ((b.val * 16 + h.val) * 2048 + l.val) * 64 + d.val
  rw [hg]

end Cert.Attn

end
-- ==== Proof.MergedHeads.lean ====
/-
  Merging batch and head, computing keys-first attention head by head, and splitting again is keys-first attention over
  (batch, head, position, feature).

  Head `16·b + h` of the merged arrays is head `(b, h)` of the originals (Flatten.lean), in every operand and in the
  result, and a head's result reads that head only. So entry `(b, h, l, e)` of the split result is
  `∑ d, q[b,h,l,d] · ∑ p, k[b,h,p,d] · v[b,h,p,e]`.
-/
import proofs.«103651_j52398601012060_2_alg».proof.Proof.Spec
import proofs.«103651_j52398601012060_2_alg».proof.Proof.Flatten

noncomputable section

namespace Cert.Attn

open Idealize.ShloMosaic Idealize.ShloMosaic.ValueIdx

theorem split_keysFirst_merge (q k v : (⟨4, ![2, 16, 2048, 64]⟩ : Shape).Idx → EReal)
    (hm : (⟨4, ![2, 16, 2048, 64]⟩ : Shape).ShapeCasts ⟨3, ![32, 2048, 64]⟩)
    (hs : (⟨3, ![32, 2048, 64]⟩ : Shape).ShapeCasts ⟨4, ![2, 16, 2048, 64]⟩) :
    shapeCast ⟨4, ![2, 16, 2048, 64]⟩
        (fun j : (⟨3, ![32, 2048, 64]⟩ : Shape).Idx =>
          keysFirst (n := 32) (shapeCast ⟨3, ![32, 2048, 64]⟩ q hm) (shapeCast ⟨3, ![32, 2048, 64]⟩ k hm)
            (shapeCast ⟨3, ![32, 2048, 64]⟩ v hm) (j 0) (j 1) (j 2)) hs
      = attention q k v := by
  funext i
  obtain ⟨b, h, l, e, rfl⟩ : ∃ (b : Fin 2) (h : Fin 16) (l : Fin 2048) (e : Fin 64), i = ix4 b h l e :=
    ⟨i 0, i 1, i 2, i 3, eq_ix4 i⟩
  have hb : b.val < 2 := b.isLt
  have hh : h.val < 16 := h.isLt
  let g : Fin 32 := ⟨b.val * 16 + h.val, by omega⟩
  rw [split_apply _ hs b h l e g rfl]
  show keysFirst (n := 32) _ _ _ g l e = keysFirst4 q k v b h l e
  unfold keysFirst keysFirst4
  refine Finset.sum_congr rfl fun d _ => ?_
  rw [merge_apply q hm b h l d g rfl]
  refine congrArg (q _ * ·) ?_
  refine Finset.sum_congr rfl fun p _ => ?_
  rw [merge_apply k hm b h p d g rfl, merge_apply v hm b h p e g rfl]

end Cert.Attn

end
-- ==== Proof.KernelValue.lean ====
/-
  The idealized kernel's whole run: its result is keys-first attention of its three arguments.

  Around the pallas_call the program only reshapes. Before it, each argument `[2, 16, 2048, 64]` is merged to
  `[32, 2048, 64]`; those three merged arrays are what the call finds. The call leaves keys-first attention of them, head
  by head (RegionValue.lean). After it, the one remaining operation splits the leading axis again, and that split of the
  merged-heads result is keys-first attention over (batch, head, position, feature) (MergedHeads.lean). No other line
  touches the arguments, so they end as they were launched.
-/
import proofs.«103651_j52398601012060_2_alg».proof.Proof.RegionValue
import proofs.«103651_j52398601012060_2_alg».proof.Proof.MergedHeads
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the call finds: the merged arguments -/

theorem found_queries (c : Dev nD) : (V m c main_v0 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v0) = _
  after_results
  rfl

theorem found_keys (c : Dev nD) : (V m c main_v1 : S32x2048x64.Idx → EReal)
    = shapeCast S32x2048x64 (m ((c : Thread nD τ).loc main_arg1)) shapeCasts_S2x16x2048x64_S32x2048x64 := by
  show StableHlo.after hostOps0 (fun b => m (c, b)) (Proc.devRef .tc main_v1) = _
  after_results
  rfl

theorem found_values (c : Dev nD) : (V m c main_v2 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v2) = _
  after_results
  rfl

/-! ## What the program returns -/

/-- The split of the call's result array is keys-first attention of the arguments as launched. -/
theorem result (c : Dev nD) :
    Pipeline.afterTail₀ cfgs (dats m) 0 (V0 m) [hostOps1] c main_v4
      = Cert.Attn.attention (m ((c : Thread nD τ).loc main_arg0)) (m ((c : Thread nD τ).loc main_arg1))
          (m ((c : Thread nD τ).loc main_arg2)) := by
  unfold Pipeline.afterTail₀
  show StableHlo.after hostOps1 _ (Proc.devRef .tc main_v4) = _
  after_results
  show shapeCast S2x16x2048x64
      (Pipeline.withArrays spec0 c (V0 m c) (fun w => (dats m 0 c).arrAt w cfg0.N) (Proc.devRef .tc (Pipeline.arrRef spec0 3)))
      shapeCasts_S32x2048x64_S2x16x2048x64 = _
  rw [Pipeline.withArrays_arr spec0 launch0.win.arr_inj c _ _ 3, RegionValue.final, found_queries, found_keys, found_values]
  exact Cert.Attn.split_keysFirst_merge _ _ _ _ _

/-- Every weakly fair execution of the idealized kernel terminates, faultless, with its result at keys-first attention
    of the launched arguments and the arguments unchanged. -/
theorem run : θ_run defs (onTc (τ := τ) (main (F := Ideal))) ⟨m, fun _ => 0, ρ⟩ fun r => ∀ c : Dev nD,
      r.2.mem ((c.tc : Thread nD τ).loc main_v4)
        = Cert.Attn.attention (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference's result, read at an index, is the scores-first bracketing.

  The reference forms the scores `s[b,h,l,p] = ∑ d, q[b,h,l,d] · k[b,h,p,d]` (a product contracting the features, batched
  over batch and head) and then `out[b,h,l,e] = ∑ p, s[b,h,l,p] · v[b,h,p,e]` (a product contracting the positions). The
  generated read-at-an-index lemmas give each product as a sum over `Fin 64` / `Fin 2048` with the operands at indices
  composed from the output index; at `(b, h, l, e)` those compositions are `(b, h, l, d)`, `(b, h, p, d)`, `(b, h, p, e)`.
-/
import proofs.«103651_j52398601012060_2_alg».proof.Proof.Gen.ReferenceIdeal.Read
import proofs.«103651_j52398601012060_2_alg».proof.Proof.Spec

noncomputable section

namespace Cert.ReferenceIdeal.RefValue

open Cert.ReferenceIdeal Cert.ReferenceIdeal.Read Idealize.ShloMosaic Idealize.ShloMosaic.ValueIdx

/-- The reference's result at `(b, h, l, e)` is `∑ p, (∑ d, q[b,h,l,d] · k[b,h,p,d]) · v[b,h,p,e]`. -/
theorem result_apply (q k v : (⟨S2x16x2048x64, .f32⟩ : BufTy).Contents (Elt Ideal))
    (b : Fin 2) (h : Fin 16) (l : Fin 2048) (e : Fin 64) :
    val_main_v1 (F := Ideal) q k v (ix4 b h l e) = Cert.Attn.scoresFirst4 q k v b h l e := by
  rw [val_main_v1_apply]
  unfold Cert.Attn.scoresFirst4
  refine Finset.sum_congr rfl fun p _ => ?_
  rw [val_main_v0_apply]
  have eq : ∀ d : Fin 64, lidx_main_v0 (lidx_main_v1 (ix4 b h l e) p) d = ix4 b h l d := fun d => funext fun a => Fin.ext (by
    match a with
    | ⟨0, _⟩ => rfl
    | ⟨1, _⟩ => rfl
    | ⟨2, _⟩ => rfl
    | ⟨3, _⟩ => rfl)
  have ek : ∀ d : Fin 64, ridx_main_v0 (lidx_main_v1 (ix4 b h l e) p) d = ix4 b h p d := fun d => funext fun a => Fin.ext (by
    match a with
    | ⟨0, _⟩ => rfl
    | ⟨1, _⟩ => rfl
    | ⟨2, _⟩ => rfl
    | ⟨3, _⟩ => rfl)
  have ev : ridx_main_v1 (ix4 b h l e) p = ix4 b h p e := funext fun a => Fin.ext (by
    match a with
    | ⟨0, _⟩ => rfl
    | ⟨1, _⟩ => rfl
    | ⟨2, _⟩ => rfl
    | ⟨3, _⟩ => rfl)
  simp only [eq, ek, ev]

/-- On real-valued inputs the reference's result array is keys-first attention: the scores-first sum at every index,
    rebracketed (Spec.lean). -/
theorem result_eq_attention (q k v : (⟨S2x16x2048x64, .f32⟩ : BufTy).Contents (Elt Ideal))
    (hq : ∀ i, ∃ r : ℝ, q i = (r : EReal)) (hk : ∀ i, ∃ r : ℝ, k i = (r : EReal)) (hv : ∀ i, ∃ r : ℝ, v i = (r : EReal)) :
    val_main_v1 (F := Ideal) q k v = Cert.Attn.attention q k v := by
  funext i
  obtain ⟨b, h, l, e, rfl⟩ : ∃ (b : Fin 2) (h : Fin 16) (l : Fin 2048) (e : Fin 64), i = ix4 b h l e :=
    ⟨i 0, i 1, i 2, i 3, eq_ix4 i⟩
  rw [result_apply, Cert.Attn.scoresFirst4_eq_keysFirst4 q k v hq hk hv]
  rfl

end Cert.ReferenceIdeal.RefValue

end
-- ==== Proof.Finite.lean ====
/-
  The precondition, read back: every entry of the three inputs is a real number.

  The precondition is `all(|q| < +∞) ∧ all(|k| < +∞) ∧ all(|v| < +∞)`, evaluated to the bit 1. On the extended reals
  `|x| = max x (-x)`, and `|x| < ⊤` fails exactly at `x = ⊤` and `x = ⊥` (there `|x| = ⊤`); every other extended real is the
  coercion of a real. A conjunction of bits is 1 only if both are; an `and`-reduction over all axes that is 1 met a 1 at
  every index.
-/
import proofs.«103651_j52398601012060_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

variable [Cert.Pre_finite_inputs.Facts]

/-- The scalar shape has one index. -/
instance : Subsingleton S_.Idx := ⟨fun a b => funext fun d => d.elim0⟩

/-- An extended real whose absolute value is below `+∞` (the f32 pattern `0x7F800000`) is a real number. -/
theorem real_of_abs_lt_inf (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have hinf : Ideal.ofBits .f32 0x7F800000#32 = ⊤ := by simp [Ideal.ofBits, Ideal.ieee]
  rw [hinf, Ideal.hostAbsf_def, Ideal.absf_def, Ideal.cmpf_def] at h
  induction x using EReal.rec with
  | bot => simp [Ideal.cmp] at h
  | coe r => exact ⟨r, rfl⟩
  | top => simp [Ideal.cmp] at h

/-- Under the precondition all three inputs are real-valued. -/
theorem real_of_pre (q k v : FVec Ideal S2x16x2048x64 .f32) (h : fn (F := Ideal) q k v = fun _ => 1#1) :
    (∀ i, ∃ r : ℝ, q i = (r : EReal)) ∧ (∀ i, ∃ r : ℝ, k i = (r : EReal)) ∧ (∀ i, ∃ r : ℝ, v i = (r : EReal)) := by
  have h0 := congrFun h ix0
  dsimp only [fn] at h0
  obtain ⟨hqk, hv⟩ := IntOp.andi_eq_one.1 h0
  obtain ⟨hq, hk⟩ := IntOp.andi_eq_one.1 hqk
  exact ⟨fun i => real_of_abs_lt_inf (q i) (Host.reduce_andi_all _ _ _ _ ix0 hq i),
    fun i => real_of_abs_lt_inf (k i) (Host.reduce_andi_all _ _ _ _ ix0 hk i),
    fun i => real_of_abs_lt_inf (v i) (Host.reduce_andi_all _ _ _ _ ix0 hv i)⟩

end Cert.Pre_finite_inputs.Finite

end
-- ==== Proof.lean ====
/-
  Attention without softmax, mask or scale, on `q k v : f32[2, 16, 2048, 64]`: per head the product `Q · Kᵀ · V`.

  The reference brackets it `(Q · Kᵀ) · V`: a 2048×2048 score matrix per head, then its product with the values. The
  kernel brackets it `Q · (Kᵀ · V)`: it merges batch and head into one axis of 32, takes two heads per grid point, forms the
  64×64 matrix `Kᵀ · V` of each (keys and values cast to bf16 on the way in, which is the identity on exact values) and
  multiplies the queries by it; the result is split back into batch and head.

  On exact values the two are equal entry by entry when the inputs are real numbers:

      ∑ p, (∑ d, q[l,d] · k[p,d]) · v[p,e]  =  ∑ d, q[l,d] · ∑ p, k[p,d] · v[p,e]

  is distributivity and an exchange of two finite sums (Proof/Reassociate.lean). On the extended reals this needs the
  entries real, which is what the precondition says (Proof/Finite.lean): with an infinite entry the two bracketings can
  meet `⊤ + ⊥` or `0 · ⊤` in different places.

  The modules: Spec (both bracketings as functions of the index, and their equality on reals) · Flatten and MergedHeads
  (merging and splitting batch and head commute with the per-head computation) · BodyValue (the two matrix products of
  the kernel body read at an index) · RegionValue (the 16 grid points' blocks are the blocks of one array function, and
  cover it) · KernelValue (the reshapes around the call; the kernel's run) · RefValue (the reference's two products read
  at an index) · Finite (the precondition read back). The idealization rewrote no operation, so `preserves` asks nothing.
-/
import proofs.«103651_j52398601012060_2_alg».proof.Defs
import proofs.«103651_j52398601012060_2_alg».proof.Proof.Gen.Kernel
import proofs.«103651_j52398601012060_2_alg».proof.Proof.Gen.Kernel.Frame
import proofs.«103651_j52398601012060_2_alg».proof.Proof.Gen.KernelIdeal
import proofs.«103651_j52398601012060_2_alg».proof.Proof.Gen.KernelIdeal.Frame
import proofs.«103651_j52398601012060_2_alg».proof.Proof.Gen.ReferenceIdeal
import proofs.«103651_j52398601012060_2_alg».proof.Proof.Gen.ReferenceIdeal.Run
import proofs.«103651_j52398601012060_2_alg».proof.Proof.Gen.ReferenceIdeal.Read
import proofs.«103651_j52398601012060_2_alg».proof.Proof.Gen.Pre_finite_inputs
import proofs.«103651_j52398601012060_2_alg».proof.Proof.KernelValue
import proofs.«103651_j52398601012060_2_alg».proof.Proof.RefValue
import proofs.«103651_j52398601012060_2_alg».proof.Proof.Finite

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the three arguments, both programs end with keys-first attention of them: the kernel by
    its run; the reference because its scores-first sums, on the real entries the precondition gives, are the same
    numbers. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hq, hk, hv⟩ := Cert.Pre_finite_inputs.Finite.real_of_pre _ _ _ (hpre c)
  rw [(hagree c).1, (hagree c).2.1, (hagree c).2.2, Cert.ReferenceIdeal.Read.val_main_v1_eq]
  exact Cert.ReferenceIdeal.RefValue.result_eq_attention _ _ _ hq hk hv

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
